-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S1x1x1024x1024 : Shape := ⟨4, ![1, 1, 1024, 1024]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_

variable [Facts]

def fn_part1 {F : FTy → Type} [FloatOps F] (main_v13 : IVec S_ 1) (main_v16 : IVec S1x1x1024x1024 1) : IVec S_ 1 :=
  let main_c_5 : IVec S_ 1 := constantI S_ 1 1#1
  let main_v17 : IVec S_ 1 := (fun x v => Host.reduce IntOp.andi x v reducesTo_S1x1x1024x1024_S_d0_1_2_3 h_S_) main_v16 main_c_5
  let main_v18 : IVec S_ 1 := andi main_v13 main_v17
  main_v18

def fn {F : FTy → Type} [FloatOps F] (main_arg0 : FVec F S8x16x1024x64 .f32) (main_arg1 : FVec F S8x16x1024x64 .f32) (main_arg2 : FVec F S8x16x1024x64 .f32) (main_arg3 : FVec F S1x1x1024x1024 .f32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  let main_v14 : FVec F S1x1x1024x1024 .f32 := Host.absf main_arg3
  let main_cst_4 : FVec F S_ .f32 := constant S_ .f32 0x7F800000#32
  let main_v15 : FVec F S1x1x1024x1024 .f32 := broadcastInDim S1x1x1024x1024 ![] bcast_S_S1x1x1024x1024 main_cst_4
  let main_v16 : IVec S1x1x1024x1024 1 := cmpf .olt main_v14 main_v15
  fn_part1 (F := F) main_v13 main_v16
-- ==== Kernel.lean ====
abbrev S8x16x1024x64 : Shape := ⟨4, ![8, 16, 1024, 64]⟩
abbrev S1x1x1024x1024 : Shape := ⟨4, ![1, 1, 1024, 1024]⟩
abbrev S128x1024x64 : Shape := ⟨3, ![128, 1024, 64]⟩
abbrev S1024x1024 : Shape := ⟨2, ![1024, 1024]⟩
abbrev S128x1024x1024 : Shape := ⟨3, ![128, 1024, 1024]⟩
abbrev S1x256x64 : Shape := ⟨3, ![1, 256, 64]⟩
abbrev S1x1024x64 : Shape := ⟨3, ![1, 1024, 64]⟩
abbrev S256x1024 : Shape := ⟨2, ![256, 1024]⟩
abbrev S1x256x1024 : Shape := ⟨3, ![1, 256, 1024]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩
abbrev S8x16x1024x1024 : Shape := ⟨4, ![8, 16, 1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1x1x1024x1024, .f32⟩
  | .hbm, ⟨4, _⟩ => ⟨S128x1024x64, .f32⟩
  | .hbm, ⟨5, _⟩ => ⟨S128x1024x64, .f32⟩
  | .hbm, ⟨6, _⟩ => ⟨S128x1024x64, .f32⟩
  | .hbm, ⟨7, _⟩ => ⟨S1024x1024, .f32⟩
  | .hbm, ⟨8, _⟩ => ⟨S128x1024x64, .f32⟩
  | .hbm, ⟨9, _⟩ => ⟨S128x1024x1024, .f32⟩
  | .hbm, ⟨10, _⟩ => ⟨S8x16x1024x64, .f32⟩
  | .hbm, ⟨11, _⟩ => ⟨S8x16x1024x1024, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S256x1024, .f32⟩
  | .local _ .vmem, ⟨7, _⟩ => ⟨S256x1024, .f32⟩
  | .local _ .vmem, ⟨8, _⟩ => ⟨S1x256x64, .f32⟩
  | .local _ .vmem, ⟨9, _⟩ => ⟨S1x256x64, .f32⟩
  | .local _ .vmem, ⟨10, _⟩ => ⟨S1x256x1024, .f32⟩
  | .local _ .vmem, ⟨11, _⟩ => ⟨S1x256x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![128, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x16x1024x64_S128x1024x64 : S8x16x1024x64.ShapeCasts S128x1024x64
  shapeCasts_S1x1x1024x1024_S1024x1024 : S1x1x1024x1024.ShapeCasts S1024x1024
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  shapeCasts_S256x64_S1x256x64 : S256x64.ShapeCasts S1x256x64
  shapeCasts_S128x1024x64_S8x16x1024x64 : S128x1024x64.ShapeCasts S8x16x1024x64
  shapeCasts_S128x1024x1024_S8x16x1024x1024 : S128x1024x1024.ShapeCasts S8x16x1024x1024
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S128x1024x64.size a
  hwx0_0 : ∀ i : grid0.Coords, EltTy.bits .f32 = 32 ∨ (Rect.block (s := S128x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S128x1024x64.size a
  hwx0_1 : ∀ i : grid0.Coords, EltTy.bits .f32 = 32 ∨ (Rect.block (s := S128x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S128x1024x64.size a
  hwx0_2 : ∀ i : grid0.Coords, EltTy.bits .f32 = 32 ∨ (Rect.block (s := S128x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .f32 = 32 ∨ (Rect.block (s := S1024x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S128x1024x64.size a
  hwx0_4 : ∀ i : grid0.Coords, EltTy.bits .f32 = 32 ∨ (Rect.block (s := S128x1024x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S128x1024x1024.size a
  hwx0_5 : ∀ i : grid0.Coords, EltTy.bits .f32 = 32 ∨ (Rect.block (s := S128x1024x1024) S1x256x1024.size (cc0_transform_5 i) (hinb0_5 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S1x1x1024x1024 : Shape := ⟨4, ![1, 1, 1024, 1024]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1x1x1024x1024, .f32⟩
  | .hbm, ⟨4, _⟩ => ⟨S8x16x1024x1024, .f32⟩
  | .hbm, ⟨5, _⟩ => ⟨S_, .f32⟩
  | .hbm, ⟨6, _⟩ => ⟨S8x16x1024x1024, .f32⟩
  | .hbm, ⟨7, _⟩ => ⟨S8x16x1024x1024, .f32⟩
  | .hbm, ⟨8, _⟩ => ⟨S8x16x1024x1024, .f32⟩
  | .hbm, ⟨9, _⟩ => ⟨S8x16x1024x1024, .f32⟩
  | .hbm, ⟨10, _⟩ => ⟨S_, .f32⟩
  | .hbm, ⟨11, _⟩ => ⟨S8x16x1024, .f32⟩
  | .hbm, ⟨12, _⟩ => ⟨S_, .f32⟩
  | .hbm, ⟨13, _⟩ => ⟨S8x16x1024, .f32⟩
  | .hbm, ⟨14, _⟩ => ⟨S8x16x1024, .f32⟩
  | .hbm, ⟨15, _⟩ => ⟨S8x16x1024x1, .f32⟩
  | .hbm, ⟨16, _⟩ => ⟨S8x16x1024x1024, .f32⟩
  | .hbm, ⟨17, _⟩ => ⟨S8x16x1024x1024, .f32⟩
  | .hbm, ⟨18, _⟩ => ⟨S8x16x1024x1024, .f32⟩
  | .hbm, ⟨19, _⟩ => ⟨S_, .f32⟩
  | .hbm, ⟨20, _⟩ => ⟨S8x16x1024, .f32⟩
  | .hbm, ⟨21, _⟩ => ⟨S8x16x1024x1, .f32⟩
  | .hbm, ⟨22, _⟩ => ⟨S8x16x1024x1024, .f32⟩
  | .hbm, ⟨23, _⟩ => ⟨S8x16x1024x1024, .f32⟩
  | .hbm, ⟨24, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  bcast_S1x1x1024x1024_S8x16x1024x1024_0_1_2_3 : S1x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.Grid.lean ====
/-
  The grid's index maps, decided over its 512 points. Point t is head t / 4 and query tile t % 4 (the grid is
  128 heads by 4 tiles of 256 query rows, walked row-major). The queries', the output's and the weights' blocks sit at
  block index (t / 4, t % 4, 0); the keys' and the values' at (t / 4, 0, 0); the mask's at (t % 4, 0).
-/
import proofs.«135980_j75462575391105_2_alg».proof.Proof.Gen.KernelIdeal

noncomputable section

namespace Cert.KernelIdeal.Grid

open Cert.KernelIdeal Idealize.ShloMosaic

theorem idxQ : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

theorem idxK : ∀ t : Fin cfg0.N, win0_1.index t (0 : Fin 3) = t.val / 4 ∧ win0_1.index t (1 : Fin 3) = 0
    ∧ win0_1.index t (2 : Fin 3) = 0 :=
  (by decide +kernel : ∀ t : Fin grid0.N, _)

theorem idxV : ∀ t : Fin cfg0.N, win0_2.index t (0 : Fin 3) = t.val / 4 ∧ win0_2.index t (1 : Fin 3) = 0
    ∧ win0_2.index t (2 : Fin 3) = 0 :=
  (by decide +kernel : ∀ t : Fin grid0.N, _)

theorem idxM : ∀ t : Fin cfg0.N, win0_3.index t (0 : Fin 2) = t.val % 4 ∧ win0_3.index t (1 : Fin 2) = 0 :=
  (by decide +kernel : ∀ t : Fin grid0.N, _)

theorem idxO : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)

theorem idxA : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, _)

end Cert.KernelIdeal.Grid

end
-- ==== Proof.Blocks.lean ====
/-
  Each window's block at a grid point, read at an entry, as an entry of the array the window stages — the arrays with
  the head axes merged, as the region finds them. At point t (head t / 4, query tile t % 4):
    queries' block (0, r, d)  = Q[t / 4, 256·(t % 4) + r, d]
    keys'    block (0, j, d)  = K[t / 4, j, d]          values' likewise
    mask's   block (r, j)     = M[256·(t % 4) + r, j]
  and an entry (0, r, x) of the output's or the weights' block sits at [t / 4, 256·(t % 4) + r, x] of its array.
-/
import proofs.«135980_j75462575391105_2_alg».proof.Proof.Gen.KernelIdeal.Frame
import proofs.«135980_j75462575391105_2_alg».proof.Proof.Grid
import Idealize.ShloMosaic.Lib.ValueIdx
import Idealize.ShloMosaic.Lib.Pipeline.Value

noncomputable section

namespace Cert.KernelIdeal.Blocks

open Cert.KernelIdeal Cert.KernelIdeal.Gen Cert.KernelIdeal.Grid Idealize.ShloMosaic Idealize.ShloMosaic.TcCoe
open Idealize.ShloMosaic.ValueIdx Idealize.SL.Sem

variable (m : (ℓ : Loc nD τ sig) → Buf (Elt Ideal) ℓ)

theorem lt512 (t : Fin cfg0.N) : t.val < 512 := lt_of_lt_of_eq t.isLt N_0

/-- The head of a grid point. -/
def headOf (t : Fin cfg0.N) : Fin 128 := ⟨t.val / 4, by have := lt512 t; omega⟩

/-- Row r of the point's query tile, as a row of the head. -/
def rowOf (t : Fin cfg0.N) (r : Fin 256) : Fin 1024 := ⟨t.val % 4 * 256 + r.val, by omega⟩

/-- The queries' block. -/
theorem blkQ (c : Dev nD) (t : Fin cfg0.N) (r : Fin 256) (d : Fin 64) :
    (iblk m c 0 t : Vec Ideal S1x256x64 .f32) (ix3 (0 : Fin 1) r d)
      = (V m c main_v0 : S128x1024x64.Idx → EReal) (ix3 (headOf t) (rowOf t r) d) := by
  obtain ⟨h0, h1, h2⟩ := idxQ t
  show (V m c main_v0 : S128x1024x64.Idx → EReal) (((cfg0.win 0).blk t).view.emb (ix3 (0 : Fin 1) r d)) = _
  refine congrArg (V m c main_v0 : S128x1024x64.Idx → EReal) (funext fun a => Fin.ext ?_)
  match a with
  | ⟨0, _⟩ => show win0_0.index t (0 : Fin 3) * 1 + 1 * 0 = t.val / 4; omega
  | ⟨1, _⟩ => show win0_0.index t (1 : Fin 3) * 256 + 1 * r.val = t.val % 4 * 256 + r.val; omega
  | ⟨2, _⟩ => show win0_0.index t (2 : Fin 3) * 64 + 1 * d.val = d.val; omega

/-- The keys' block. -/
theorem blkK (c : Dev nD) (t : Fin cfg0.N) (j : Fin 1024) (d : Fin 64) :
    (iblk m c 1 t : Vec Ideal S1x1024x64 .f32) (ix3 (0 : Fin 1) j d)
      = (V m c main_v1 : S128x1024x64.Idx → EReal) (ix3 (headOf t) j d) := by
  obtain ⟨h0, h1, h2⟩ := idxK t
  show (V m c main_v1 : S128x1024x64.Idx → EReal) (((cfg0.win 1).blk t).view.emb (ix3 (0 : Fin 1) j d)) = _
  refine congrArg (V m c main_v1 : S128x1024x64.Idx → EReal) (funext fun a => Fin.ext ?_)
  match a with
  | ⟨0, _⟩ => show win0_1.index t (0 : Fin 3) * 1 + 1 * 0 = t.val / 4; omega
  | ⟨1, _⟩ => show win0_1.index t (1 : Fin 3) * 1024 + 1 * j.val = j.val; omega
  | ⟨2, _⟩ => show win0_1.index t (2 : Fin 3) * 64 + 1 * d.val = d.val; omega

/-- The values' block. -/
theorem blkV (c : Dev nD) (t : Fin cfg0.N) (j : Fin 1024) (d : Fin 64) :
    (iblk m c 2 t : Vec Ideal S1x1024x64 .f32) (ix3 (0 : Fin 1) j d)
      = (V m c main_v2 : S128x1024x64.Idx → EReal) (ix3 (headOf t) j d) := by
  obtain ⟨h0, h1, h2⟩ := idxV t
  show (V m c main_v2 : S128x1024x64.Idx → EReal) (((cfg0.win 2).blk t).view.emb (ix3 (0 : Fin 1) j d)) = _
  refine congrArg (V m c main_v2 : S128x1024x64.Idx → EReal) (funext fun a => Fin.ext ?_)
  match a with
  | ⟨0, _⟩ => show win0_2.index t (0 : Fin 3) * 1 + 1 * 0 = t.val / 4; omega
  | ⟨1, _⟩ => show win0_2.index t (1 : Fin 3) * 1024 + 1 * j.val = j.val; omega
  | ⟨2, _⟩ => show win0_2.index t (2 : Fin 3) * 64 + 1 * d.val = d.val; omega

/-- The mask's block. -/
theorem blkM (c : Dev nD) (t : Fin cfg0.N) (r : Fin 256) (j : Fin 1024) :
    (iblk m c 3 t : Vec Ideal S256x1024 .f32) (ix2 r j)
      = (V m c main_v3 : S1024x1024.Idx → EReal) (ix2 (rowOf t r) j) := by
  obtain ⟨h0, h1⟩ := idxM t
  show (V m c main_v3 : S1024x1024.Idx → EReal) (((cfg0.win 3).blk t).view.emb (ix2 r j)) = _
  refine congrArg (V m c main_v3 : S1024x1024.Idx → EReal) (funext fun a => Fin.ext ?_)
  match a with
  | ⟨0, _⟩ => show win0_3.index t (0 : Fin 2) * 256 + 1 * r.val = t.val % 4 * 256 + r.val; omega
  | ⟨1, _⟩ => show win0_3.index t (1 : Fin 2) * 1024 + 1 * j.val = j.val; omega

/-- Where an entry of the output's block sits in its array. -/
theorem embO (t : Fin cfg0.N) (r : Fin 256) (d : Fin 64) :
    ((cfg0.win 4).blk t).view.emb (ix3 (0 : Fin 1) r d) = (ix3 (headOf t) (rowOf t r) d : S128x1024x64.Idx) := by
  obtain ⟨h0, h1, h2⟩ := idxO t
  funext a; apply Fin.ext
  match a with
  | ⟨0, _⟩ => show win0_4.index t (0 : Fin 3) * 1 + 1 * 0 = t.val / 4; omega
  | ⟨1, _⟩ => show win0_4.index t (1 : Fin 3) * 256 + 1 * r.val = t.val % 4 * 256 + r.val; omega
  | ⟨2, _⟩ => show win0_4.index t (2 : Fin 3) * 64 + 1 * d.val = d.val; omega

/-- Where an entry of the weights' block sits in its array. -/
theorem embA (t : Fin cfg0.N) (r : Fin 256) (j : Fin 1024) :
    ((cfg0.win 5).blk t).view.emb (ix3 (0 : Fin 1) r j) = (ix3 (headOf t) (rowOf t r) j : S128x1024x1024.Idx) := by
  obtain ⟨h0, h1, h2⟩ := idxA t
  funext a; apply Fin.ext
  match a with
  | ⟨0, _⟩ => show win0_5.index t (0 : Fin 3) * 1 + 1 * 0 = t.val / 4; omega
  | ⟨1, _⟩ => show win0_5.index t (1 : Fin 3) * 256 + 1 * r.val = t.val % 4 * 256 + r.val; omega
  | ⟨2, _⟩ => show win0_5.index t (2 : Fin 3) * 1024 + 1 * j.val = j.val; omega

end Cert.KernelIdeal.Blocks

end
-- ==== Proof.BodyMatmul.lean ====
/-
  The body's two matrix products read at an output index, at the extended reals: each is the plain sum over the
  contracted axis of the products of the operands' entries (no accumulator: both start from the zero matrix).
    scores:  (A · Bᵀ)[r, j] = Σ_d A[r, d] · B[j, d]     (A : [256, 64], B : [1024, 64])
    output:  (P · V)[r, d]  = Σ_j P[r, j] · V[j, d]     (P : [256, 1024], V : [1024, 64])
-/
import proofs.«135980_j75462575391105_2_alg».proof.Proof.Gen.KernelIdeal
import Idealize.ShloMosaic.Lib.ValueIdx
import Idealize.ShloMosaic.PureOps.Ideal.Laws

noncomputable section

open scoped BigOperators

namespace Cert.KernelIdeal.Body

open Cert.KernelIdeal Cert.KernelIdeal.Gen Cert.KernelIdeal.Facts₀ Idealize.ShloMosaic Idealize.ShloMosaic.ValueIdx

abbrev Dqk := dot_S256x64_S1024x64_S256x1024_1_1_0_0_n_n
abbrev Dpv := dot_S256x1024_S1024x64_S256x64_1_0_0_1_n_n

theorem qk_lhs0 (i : S256x1024.Idx) (q : Dqk.contr.Idx) : (Dqk.lhsIdx i q 0).val = (i 0).val := by
  unfold DotDims.lhsIdx
  rw [dif_neg (show ¬(0 : Fin S256x64.rank) ∈ Dqk.lhsBatch by decide), dif_pos (show (0 : Fin S256x64.rank) ∈ Dqk.lhsNonContracting by decide)]
  rfl

theorem qk_rhs0 (i : S256x1024.Idx) (q : Dqk.contr.Idx) : (Dqk.rhsIdx i q 0).val = (i 1).val := by
  unfold DotDims.rhsIdx
  rw [dif_neg (show ¬(0 : Fin S1024x64.rank) ∈ Dqk.rhsBatch by decide), dif_pos (show (0 : Fin S1024x64.rank) ∈ Dqk.rhsNonContracting by decide)]
  rfl

theorem qk_lhs (r : Fin 256) (j : Fin 1024) (d : Fin 64) :
    Dqk.lhsIdx (ix2 r j) ((contrEquiv1 Dqk 64 rfl rfl).symm d) = ix2 r d := by
  funext a; apply Fin.ext
  match a with
  | ⟨0, _⟩ => exact qk_lhs0 _ _
  | ⟨1, _⟩ => exact (Dqk.lhsIdx_val_of_single rfl _ _).trans (contrEquiv1_symm_val Dqk 64 rfl rfl d)

theorem qk_rhs (r : Fin 256) (j : Fin 1024) (d : Fin 64) :
    Dqk.rhsIdx (ix2 r j) ((contrEquiv1 Dqk 64 rfl rfl).symm d) = ix2 j d := by
  funext a; apply Fin.ext
  match a with
  | ⟨0, _⟩ => exact qk_rhs0 _ _
  | ⟨1, _⟩ => exact (Dqk.rhsIdx_val_of_single rfl _ _).trans (contrEquiv1_symm_val Dqk 64 rfl rfl d)

/-- The score product at (r, j): the dot product of row r of the left operand and row j of the right one. -/
theorem qk_apply (A : FVec Ideal S256x64 .bf16) (B : FVec Ideal S1024x64 .bf16) (r : Fin 256) (j : Fin 1024) :
    matmul Dqk none A B (constant S256x1024 .f32 0x00000000#32) (ix2 r j) = ∑ d : Fin 64, A (ix2 r d) * B (ix2 j d) := by
  simp only [matmul]
  rw [Ideal.matmul_constant_zero_apply, ← Equiv.sum_comp (contrEquiv1 Dqk 64 rfl rfl).symm]
  exact Finset.sum_congr rfl fun d _ => by rw [qk_lhs, qk_rhs]

theorem pv_lhs0 (i : S256x64.Idx) (q : Dpv.contr.Idx) : (Dpv.lhsIdx i q 0).val = (i 0).val := by
  unfold DotDims.lhsIdx
  rw [dif_neg (show ¬(0 : Fin S256x1024.rank) ∈ Dpv.lhsBatch by decide), dif_pos (show (0 : Fin S256x1024.rank) ∈ Dpv.lhsNonContracting by decide)]
  rfl

theorem pv_rhs1 (i : S256x64.Idx) (q : Dpv.contr.Idx) : (Dpv.rhsIdx i q 1).val = (i 1).val := by
  unfold DotDims.rhsIdx
  rw [dif_neg (show ¬(1 : Fin S1024x64.rank) ∈ Dpv.rhsBatch by decide), dif_pos (show (1 : Fin S1024x64.rank) ∈ Dpv.rhsNonContracting by decide)]
  rfl

theorem pv_lhs (r : Fin 256) (d : Fin 64) (j : Fin 1024) :
    Dpv.lhsIdx (ix2 r d) ((contrEquiv1 Dpv 1024 rfl rfl).symm j) = ix2 r j := by
  funext a; apply Fin.ext
  match a with
  | ⟨0, _⟩ => exact pv_lhs0 _ _
  | ⟨1, _⟩ => exact (Dpv.lhsIdx_val_of_single rfl _ _).trans (contrEquiv1_symm_val Dpv 1024 rfl rfl j)

theorem pv_rhs (r : Fin 256) (d : Fin 64) (j : Fin 1024) :
    Dpv.rhsIdx (ix2 r d) ((contrEquiv1 Dpv 1024 rfl rfl).symm j) = ix2 j d := by
  funext a; apply Fin.ext
  match a with
  | ⟨0, _⟩ => exact (Dpv.rhsIdx_val_of_single rfl _ _).trans (contrEquiv1_symm_val Dpv 1024 rfl rfl j)
  | ⟨1, _⟩ => exact pv_rhs1 _ _

/-- The output product at (r, d): row r of the weights against column d of the values. -/
theorem pv_apply (A : FVec Ideal S256x1024 .bf16) (B : FVec Ideal S1024x64 .bf16) (r : Fin 256) (d : Fin 64) :
    matmul Dpv none A B (constant S256x64 .f32 0x00000000#32) (ix2 r d) = ∑ j : Fin 1024, A (ix2 r j) * B (ix2 j d) := by
  simp only [matmul]
  rw [Ideal.matmul_constant_zero_apply, ← Equiv.sum_comp (contrEquiv1 Dpv 1024 rfl rfl).symm]
  exact Finset.sum_congr rfl fun j _ => by rw [pv_lhs, pv_rhs]

end Cert.KernelIdeal.Body

end
-- ==== Proof.Softmax.lean ====
/-
  Row softmax on the extended reals, and the two facts that join a scaled, clamped softmax to the plain one.

  For a row of scores `s : Fin n → EReal`:
    rowMax s      = the maximum of the entries (from -∞),
    expShift s j  = exp (s j - rowMax s),
    expSum s      = Σ_j expShift s j,
    softmax s j   = expShift s j / expSum s,
    softmaxClamped c s j = expShift s j / max (expSum s) c.
  When every score is a real number and the row is not empty, the maximum is attained, so one summand of
  `expSum s` is exp 0 = 1 and the others are ≥ 0: `1 ≤ expSum s`, and a clamp from below by any `c ≤ 1` changes nothing.
  A dot product whose left factors are pre-multiplied by 1/8 is the dot product divided by 8, when all factors are real
  (the distributive law, which holds on the reals).
-/
import Idealize.ShloMosaic.PureOps.Ideal
import Idealize.ShloMosaic.PureOps.Ideal.Laws

noncomputable section

open scoped BigOperators

namespace Cert.Attn

open Idealize.ShloMosaic

/-! ## Real entries -/

/-- An extended real that is a real number. -/
def IsReal (x : EReal) : Prop := ∃ r : ℝ, x = (r : EReal)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The float words of the two programs -/

/-- The word `0x3E000000` is 1/8. -/
theorem ofBits_eighth : Ideal.ofBits .f32 0x3E000000#32 = ((1 / 8 : ℝ) : EReal) := by
  simp [Ideal.ofBits, Ideal.ieee, -EReal.coe_mul]; norm_num

/-- The word `0x41000000` is 8. -/
theorem ofBits_eight : Ideal.ofBits .f32 0x41000000#32 = ((8 : ℝ) : EReal) := by
  simp [Ideal.ofBits, Ideal.ieee, -EReal.coe_mul]; norm_num

/-- The word `0xFF800000` is -∞. -/
theorem ofBits_negInf : Ideal.ofBits .f32 0xFF800000#32 = ⊥ := by
  simp [Ideal.ofBits, Ideal.ieee]

/-! ## The row softmax -/

variable {n : Nat}

/-- The maximum of a row, from -∞. -/
def rowMax (s : Fin n → EReal) : EReal := (Finset.univ : Finset (Fin n)).fold max ⊥ s

/-- `exp (s j - max s)`. -/
def expShift (s : Fin n → EReal) (j : Fin n) : EReal := Ideal.exp (s j - rowMax s)

/-- The normaliser. -/
def expSum (s : Fin n → EReal) : EReal := ∑ j, expShift s j

/-- The softmax of a row. -/
def softmax (s : Fin n → EReal) (j : Fin n) : EReal := Ideal.div (expShift s j) (expSum s)

/-- The softmax with the normaliser clamped from below by `c`. -/
def softmaxClamped (c : EReal) (s : Fin n → EReal) (j : Fin n) : EReal := Ideal.div (expShift s j) (max (expSum s) c)

/-- The exponential is nowhere negative. -/
theorem exp_nonneg (x : EReal) : 0 ≤ Ideal.exp x := by
  induction x using EReal.rec with
  | bot => simp
  | top => simp
  | coe r => rw [Ideal.exp_coe]; exact_mod_cast (Real.exp_pos r).le

/-- The maximum of a non-empty row is one of its entries. -/
theorem rowMax_attained (hn : 0 < n) (s : Fin n → EReal) : ∃ j, rowMax s = s j := by
  have h : (Finset.univ : Finset (Fin n)).Nonempty := ⟨⟨0, hn⟩, Finset.mem_univ _⟩
  obtain ⟨j, -, hj⟩ := Finset.exists_mem_eq_sup (Finset.univ : Finset (Fin n)) h s
  exact ⟨j, hj⟩

/-- A non-empty row of real scores has normaliser at least 1: the maximal entry contributes exp 0. -/
theorem one_le_expSum (hn : 0 < n) (s : Fin n → EReal) (hs : ∀ j, IsReal (s j)) : 1 ≤ expSum s := by
  obtain ⟨j0, hj0⟩ := rowMax_attained hn s
  obtain ⟨r, hr⟩ := hs j0
  have h1 : expShift s j0 = 1 := by
    unfold expShift
    rw [hj0, hr, ← EReal.coe_sub, sub_self, Ideal.exp_coe, Real.exp_zero, EReal.coe_one]
  calc (1 : EReal) = expShift s j0 := h1.symm
    _ ≤ expSum s := Finset.single_le_sum (f := expShift s) (fun j _ => exp_nonneg _) (Finset.mem_univ j0)

/-- So a clamp of the normaliser from below by `c ≤ 1` is no clamp. -/
theorem softmaxClamped_eq (hn : 0 < n) (c : EReal) (hc : c ≤ 1) (s : Fin n → EReal) (hs : ∀ j, IsReal (s j)) :
    softmaxClamped c s = softmax s := by
  funext j
  unfold softmaxClamped softmax
  rw [max_eq_left (hc.trans (one_le_expSum hn s hs))]

/-! ## The scaled dot product -/

/-- `Σ_d (q d · 1/8) · k d = (Σ_d q d · k d) / 8` for real factors. -/
theorem scaled_dot {D : Nat} (q k : Fin D → EReal) (hq : ∀ d, IsReal (q d)) (hk : ∀ d, IsReal (k d)) :
    ∑ d, (q d * ((1 / 8 : ℝ) : EReal)) * k d = Ideal.div (∑ d, q d * k d) ((8 : ℝ) : EReal) := by
  choose f hf using hq
  choose g hg using hk
  rw [Ideal.div_coe (by norm_num : (8 : ℝ) ≠ 0)]
  simp only [hf, hg, ← EReal.coe_mul]
  rw [← coe_sum, ← coe_sum, ← EReal.coe_mul]
  congr 1
  rw [Finset.sum_mul]
  exact Finset.sum_congr rfl fun d _ => by ring

/-- The scaled dot product of real factors is real. -/
theorem isReal_dot {D : Nat} (q k : Fin D → EReal) (hq : ∀ d, IsReal (q d)) (hk : ∀ d, IsReal (k d)) :
    IsReal (∑ d, q d * k d) := by
  choose f hf using hq
  choose g hg using hk
  refine ⟨∑ d, f d * g d, ?_⟩
  simp only [hf, hg, ← EReal.coe_mul]
  rw [← coe_sum]

/-- A real divided by 8, plus a real, is real. -/
theorem isReal_div8_add (x y : EReal) (hx : IsReal x) (hy : IsReal y) : IsReal (Ideal.div x ((8 : ℝ) : EReal) + y) := by
  obtain ⟨a, rfl⟩ := hx
  obtain ⟨b, rfl⟩ := hy
  rw [Ideal.div_coe (by norm_num : (8 : ℝ) ≠ 0)]
  exact ⟨a * (1 / 8) + b, by push_cast; rfl⟩

end Cert.Attn

end
-- ==== Proof.BodySoftmax.lean ====
/-
  The body's normalisation of a block of scores, read at an entry: with s the [256, 1024] block of scores of the 256
  query rows of a grid point, the body takes each row's maximum (a lane reduction from -∞), exponentiates the
  differences, sums each row (a lane reduction from 0), clamps the sums from below by the named constant and divides.
  At entry (r, j) this is the clamped row softmax of row r of s.
-/
import proofs.«135980_j75462575391105_2_alg».proof.Proof.Gen.KernelIdeal
import proofs.«135980_j75462575391105_2_alg».proof.Proof.Softmax
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Body

open Cert.KernelIdeal Cert.KernelIdeal.Facts₀ Idealize.ShloMosaic Idealize.ShloMosaic.ValueIdx Cert.Attn

/-- The constant the normaliser is clamped by: the rational 10⁻³⁰ its name stands for. -/
abbrev clampC : EReal :=
  Named.named (F := Ideal) Cert.KernelIdeal.κ "inv_1000000000000000000000000000000" (φ := .f32) 0x0DA24260#32

theorem clampC_eq : clampC = ((1 / 1000000000000000000000000000000 : ℝ) : EReal) :=
  IdealRules.named_const.ideal_named_scalar _ _ _ _ rfl

theorem clampC_le_one : clampC ≤ 1 := by
  rw [clampC_eq]
  exact_mod_cast (by norm_num : (1 / 1000000000000000000000000000000 : ℝ) ≤ 1)

/-! ## Columns -/

/-- A vector of 256 row values viewed as a [256, 1] column reads the row's value. -/
theorem col_apply (v : FVec Ideal S256 .f32) (r : Fin 256) :
    shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]
    show r.val = r.val * 1 + 0
    omega)

/-- A [256, 1] column broadcast along the 1024 lanes reads the row's value everywhere in the row. -/
theorem colBcast_apply (w : FVec Ideal S256x1 .f32) (r : Fin 256) (j : Fin 1024) :
    broadcastTo S256x1024 w broadcasts_S256x1_S256x1024 (ix2 r j) = w (ix2 r (0 : Fin 1)) :=
  broadcastTo_apply w broadcasts_S256x1_S256x1024 (ix2 r j) (ix2 r (0 : Fin 1)) (fun a => match a with
    | ⟨0, _⟩ => by show r.val = if (256 : Nat) = 1 then 0 else r.val; rw [if_neg (by decide)]
    | ⟨1, _⟩ => by show 0 = if (1 : Nat) = 1 then 0 else j.val; rw [if_pos rfl])

/-! ## The two lane reductions -/

/-- The lane maximum of row r. -/
theorem laneMax_apply (s : FVec Ideal S256x1024 .f32) (r : Fin 256) :
    multiReduction .maximumf [1] S256 s 0xFF800000#32 reduces_S256x1024_S256 (.inl rfl) rfl (ix1 r)
      = rowMax (fun j : Fin 1024 => s (ix2 r j)) := by
  refine (Ideal.multiReduction_maximumf_single s 0xFF800000#32 reduces_S256x1024_S256 (.inl rfl) rfl (ix1 r)).trans ?_
  show (Finset.univ : Finset (Fin 1024)).fold max (Ideal.ofBits .f32 0xFF800000#32) (s ∘ reduces_S256x1024_S256.lift (ix1 r))
    = (Finset.univ : Finset (Fin 1024)).fold max ⊥ (fun j : Fin 1024 => s (ix2 r j))
  rw [ofBits_negInf]
  have hrow : (s ∘ reduces_S256x1024_S256.lift (ix1 r)) = fun j : Fin 1024 => s (ix2 r j) :=
    funext fun j => congrArg s (funext fun a => Fin.ext (by match a with | ⟨0, _⟩ => rfl | ⟨1, _⟩ => rfl))
  rw [hrow]
  rfl

/-- The lane sum of row r. -/
theorem laneSum_apply (e : FVec Ideal S256x1024 .f32) (r : Fin 256) :
    multiReduction .add [1] S256 e 0x00000000#32 reduces_S256x1024_S256 (.inl rfl) rfl (ix1 r)
      = ∑ j : Fin 1024, e (ix2 r j) := by
  refine (Ideal.multiReduction_add_single e 0x00000000#32 reduces_S256x1024_S256 (.inl rfl) rfl (ix1 r)).trans ?_
  show ∑ j : Fin 1024, e (reduces_S256x1024_S256.lift (ix1 r) j) = ∑ j : Fin 1024, e (ix2 r j)
  exact Finset.sum_congr rfl fun j _ =>
    congrArg e (funext fun a => Fin.ext (by match a with | ⟨0, _⟩ => rfl | ⟨1, _⟩ => rfl))

/-! ## The normalisation -/

/-- The exponentials of the scores less their row's maximum. -/
def expPart (s : FVec Ideal S256x1024 .f32) : FVec Ideal S256x1024 .f32 :=
  exp (subf s (broadcastTo S256x1024 (shapeCast S256x1
    (multiReduction .maximumf [1] S256 s 0xFF800000#32 reduces_S256x1024_S256 (.inl rfl) rfl) shapeCasts_S256_S256x1)
    broadcasts_S256x1_S256x1024))

/-- The exponentials divided by their clamped row sums. -/
def normalize (s : FVec Ideal S256x1024 .f32) : FVec Ideal S256x1024 .f32 :=
  divf (expPart s) (broadcastTo S256x1024 (maximumf (shapeCast S256x1
    (multiReduction .add [1] S256 (expPart s) 0x00000000#32 reduces_S256x1024_S256 (.inl rfl) rfl) shapeCasts_S256_S256x1)
    (broadcast S256x1 clampC)) broadcasts_S256x1_S256x1024)

theorem expPart_apply (s : FVec Ideal S256x1024 .f32) (r : Fin 256) (j : Fin 1024) :
    expPart s (ix2 r j) = expShift (fun j' : Fin 1024 => s (ix2 r j')) j := by
  show Ideal.exp (s (ix2 r j) - broadcastTo S256x1024 (shapeCast S256x1
    (multiReduction .maximumf [1] S256 s 0xFF800000#32 reduces_S256x1024_S256 (.inl rfl) rfl) shapeCasts_S256_S256x1)
    broadcasts_S256x1_S256x1024 (ix2 r j)) = Ideal.exp (s (ix2 r j) - rowMax (fun j' : Fin 1024 => s (ix2 r j')))
  rw [colBcast_apply, col_apply, laneMax_apply]

theorem normalize_apply (s : FVec Ideal S256x1024 .f32) (r : Fin 256) (j : Fin 1024) :
    normalize s (ix2 r j) = softmaxClamped clampC (fun j' : Fin 1024 => s (ix2 r j')) j := by
  show Ideal.div (expPart s (ix2 r j)) (broadcastTo S256x1024 (maximumf (shapeCast S256x1
    (multiReduction .add [1] S256 (expPart s) 0x00000000#32 reduces_S256x1024_S256 (.inl rfl) rfl) shapeCasts_S256_S256x1)
    (broadcast S256x1 clampC)) broadcasts_S256x1_S256x1024 (ix2 r j))
    = Ideal.div (expShift (fun j' : Fin 1024 => s (ix2 r j')) j) (max (∑ j' : Fin 1024, expShift (fun j' : Fin 1024 => s (ix2 r j')) j') clampC)
  rw [colBcast_apply, expPart_apply]
  show Ideal.div _ (max (shapeCast S256x1
    (multiReduction .add [1] S256 (expPart s) 0x00000000#32 reduces_S256x1024_S256 (.inl rfl) rfl) shapeCasts_S256_S256x1 (ix2 r (0 : Fin 1))) clampC) = _
  rw [col_apply, laneSum_apply]
  simp only [expPart_apply]

end Cert.KernelIdeal.Body

end
-- ==== Proof.Spec.lean ====
/-
  Scaled dot-product attention as functions of the argument arrays, index by index, in the two spellings the two
  programs compute, and the proof that they are one function when every input entry is a real number.

  With q, k, v : [8, 16, 1024, 64] and mask : [1, 1, 1024, 1024], for a head (b, h) and a query row r the scores are
    reference:  s_j = (Σ_d q[b,h,r,d] · k[b,h,j,d]) / 8 + mask[0,0,r,j]
    kernel:     s_j = (Σ_d (q[b,h,r,d] · 1/8) · k[b,h,j,d]) + mask[0,0,r,j]
  the attention weights are the row softmax of the scores (the kernel's with its normaliser clamped from below by a
  constant c ≤ 1), and the output is Σ_j attn[b,h,r,j] · v[b,h,j,d].
  The same functions are also written over the arrays with the two head axes merged ([128, 1024, …], head index
  16·b + h), which is the layout the kernel's grid walks, and over one grid point's blocks.
-/
import proofs.«135980_j75462575391105_2_alg».proof.Proof.Softmax
import Idealize.ShloMosaic.Lib.ValueIdx

noncomputable section

open scoped BigOperators

namespace Cert.Attn

open Idealize.ShloMosaic Idealize.ShloMosaic.ValueIdx

abbrev Q4 := (⟨4, ![8, 16, 1024, 64]⟩ : Shape).Idx → EReal
abbrev M4 := (⟨4, ![1, 1, 1024, 1024]⟩ : Shape).Idx → EReal
abbrev A4 := (⟨4, ![8, 16, 1024, 1024]⟩ : Shape).Idx → EReal
abbrev Q3 := (⟨3, ![128, 1024, 64]⟩ : Shape).Idx → EReal
abbrev A3 := (⟨3, ![128, 1024, 1024]⟩ : Shape).Idx → EReal
abbrev M2 := (⟨2, ![1024, 1024]⟩ : Shape).Idx → EReal
abbrev Bq := (⟨3, ![1, 256, 64]⟩ : Shape).Idx → EReal
abbrev Bk := (⟨3, ![1, 1024, 64]⟩ : Shape).Idx → EReal
abbrev Bm := (⟨2, ![256, 1024]⟩ : Shape).Idx → EReal
abbrev Bo := (⟨2, ![256, 64]⟩ : Shape).Idx → EReal

/-- 1/8, the scale folded into the queries. -/
abbrev eighth : EReal := ((1 / 8 : ℝ) : EReal)

/-! ## The reference's spelling -/

/-- The scores of one query row: the dot products divided by 8, plus the mask. -/
def scoreRef (q k : Q4) (mask : M4) (b : Fin 8) (h : Fin 16) (r : Fin 1024) : Fin 1024 → EReal :=
  fun j => Ideal.div (∑ d : Fin 64, q (ix4 b h r d) * k (ix4 b h j d)) ((8 : ℝ) : EReal) + mask (ix4 (0 : Fin 1) (0 : Fin 1) r j)

/-- The attention weights. -/
def attnRef (q k : Q4) (mask : M4) : A4 := fun i => softmax (scoreRef q k mask (i 0) (i 1) (i 2)) (i 3)

/-- The output: the weights times the values. -/
def outRef (q k v : Q4) (mask : M4) : Q4 :=
  fun i => ∑ j : Fin 1024, attnRef q k mask (ix4 (i 0) (i 1) (i 2) j) * v (ix4 (i 0) (i 1) j (i 3))

/-! ## The kernel's spelling -/

/-- The scores with the scale folded into the queries. -/
def scoreKer (q k : Q4) (mask : M4) (b : Fin 8) (h : Fin 16) (r : Fin 1024) : Fin 1024 → EReal :=
  fun j => (∑ d : Fin 64, (q (ix4 b h r d) * eighth) * k (ix4 b h j d)) + mask (ix4 (0 : Fin 1) (0 : Fin 1) r j)

/-- The attention weights, the normaliser clamped from below by `c`. -/
def attnKer (c : EReal) (q k : Q4) (mask : M4) : A4 := fun i => softmaxClamped c (scoreKer q k mask (i 0) (i 1) (i 2)) (i 3)

/-- The output. -/
def outKer (c : EReal) (q k v : Q4) (mask : M4) : Q4 :=
  fun i => ∑ j : Fin 1024, attnKer c q k mask (ix4 (i 0) (i 1) (i 2) j) * v (ix4 (i 0) (i 1) j (i 3))

/-! ## The two spellings agree on real inputs -/

theorem scoreKer_eq (q k : Q4) (mask : M4) (hq : ∀ i, IsReal (q i)) (hk : ∀ i, IsReal (k i)) (b : Fin 8) (h : Fin 16) (r : Fin 1024) :
    scoreKer q k mask b h r = scoreRef q k mask b h r := by
  funext j
  unfold scoreKer scoreRef
  rw [scaled_dot (fun d => q (ix4 b h r d)) (fun d => k (ix4 b h j d)) (fun d => hq _) (fun d => hk _)]

theorem scoreRef_real (q k : Q4) (mask : M4) (hq : ∀ i, IsReal (q i)) (hk : ∀ i, IsReal (k i)) (hm : ∀ i, IsReal (mask i))
    (b : Fin 8) (h : Fin 16) (r : Fin 1024) (j : Fin 1024) : IsReal (scoreRef q k mask b h r j) :=
  isReal_div8_add _ _ (isReal_dot (fun d => q (ix4 b h r d)) (fun d => k (ix4 b h j d)) (fun d => hq _) (fun d => hk _)) (hm _)

theorem attnKer_eq (c : EReal) (hc : c ≤ 1) (q k : Q4) (mask : M4) (hq : ∀ i, IsReal (q i)) (hk : ∀ i, IsReal (k i))
    (hm : ∀ i, IsReal (mask i)) : attnKer c q k mask = attnRef q k mask := by
  funext i
  obtain ⟨b, h, r, j, rfl⟩ : ∃ (b : Fin 8) (h : Fin 16) (r : Fin 1024) (j : Fin 1024), i = ix4 b h r j :=
    ⟨i 0, i 1, i 2, i 3, eq_ix4 i⟩
  show softmaxClamped c (scoreKer q k mask b h r) j = softmax (scoreRef q k mask b h r) j
  rw [scoreKer_eq q k mask hq hk, softmaxClamped_eq (by norm_num) c hc _ (scoreRef_real q k mask hq hk hm b h r)]

theorem outKer_eq (c : EReal) (hc : c ≤ 1) (q k v : Q4) (mask : M4) (hq : ∀ i, IsReal (q i)) (hk : ∀ i, IsReal (k i))
    (hm : ∀ i, IsReal (mask i)) : outKer c q k v mask = outRef q k v mask := by
  unfold outKer outRef
  rw [attnKer_eq c hc q k mask hq hk hm]

/-! ## The kernel's spelling over the merged head axis -/

def score3 (Q K : Q3) (M : M2) (g : Fin 128) (r : Fin 1024) : Fin 1024 → EReal :=
  fun j => (∑ d : Fin 64, (Q (ix3 g r d) * eighth) * K (ix3 g j d)) + M (ix2 r j)

def attn3 (c : EReal) (Q K : Q3) (M : M2) : A3 := fun i => softmaxClamped c (score3 Q K M (i 0) (i 1)) (i 2)

def out3 (c : EReal) (Q K V : Q3) (M : M2) : Q3 :=
  fun i => ∑ j : Fin 1024, attn3 c Q K M (ix3 (i 0) (i 1) j) * V (ix3 (i 0) j (i 2))

/-- Head (b, h) of the separate axes is head 16·b + h of the merged axis. -/
def head (b : Fin 8) (h : Fin 16) : Fin 128 := ⟨16 * b.val + h.val, by omega⟩

/-- When the merged arrays are the relaid argument arrays, the merged functions are the relaid functions. -/
theorem attn3_eq (c : EReal) (q k : Q4) (mask : M4) (Q K : Q3) (M : M2)
    (hQ : ∀ b h r d, Q (ix3 (head b h) r d) = q (ix4 b h r d)) (hK : ∀ b h r d, K (ix3 (head b h) r d) = k (ix4 b h r d))
    (hM : ∀ r j, M (ix2 r j) = mask (ix4 (0 : Fin 1) (0 : Fin 1) r j)) (b : Fin 8) (h : Fin 16) (r j : Fin 1024) :
    attn3 c Q K M (ix3 (head b h) r j) = attnKer c q k mask (ix4 b h r j) := by
  show softmaxClamped c (score3 Q K M (head b h) r) j = softmaxClamped c (scoreKer q k mask b h r) j
  have hs : score3 Q K M (head b h) r = scoreKer q k mask b h r := by
    funext j'
    unfold score3 scoreKer
    rw [hM]
    exact congrArg (· + _) (Finset.sum_congr rfl fun d _ => by rw [hQ, hK])
  rw [hs]

theorem out3_eq (c : EReal) (q k v : Q4) (mask : M4) (Q K V : Q3) (M : M2)
    (hQ : ∀ b h r d, Q (ix3 (head b h) r d) = q (ix4 b h r d)) (hK : ∀ b h r d, K (ix3 (head b h) r d) = k (ix4 b h r d))
    (hV : ∀ b h r d, V (ix3 (head b h) r d) = v (ix4 b h r d))
    (hM : ∀ r j, M (ix2 r j) = mask (ix4 (0 : Fin 1) (0 : Fin 1) r j)) (b : Fin 8) (h : Fin 16) (r : Fin 1024) (d : Fin 64) :
    out3 c Q K V M (ix3 (head b h) r d) = outKer c q k v mask (ix4 b h r d) := by
  show ∑ j : Fin 1024, attn3 c Q K M (ix3 (head b h) r j) * V (ix3 (head b h) j d)
    = ∑ j : Fin 1024, attnKer c q k mask (ix4 b h r j) * v (ix4 b h j d)
  exact Finset.sum_congr rfl fun j _ => by rw [attn3_eq c q k mask Q K M hQ hK hM, hV]

/-! ## One grid point's blocks -/

/-- The scores of row `r` of a query block against the head's keys and the block's rows of the mask. -/
def scoreB (x0 : Bq) (x1 : Bk) (x3 : Bm) (r : Fin 256) : Fin 1024 → EReal :=
  fun j => (∑ d : Fin 64, (x0 (ix3 (0 : Fin 1) r d) * eighth) * x1 (ix3 (0 : Fin 1) j d)) + x3 (ix2 r j)

def attnB (c : EReal) (x0 : Bq) (x1 : Bk) (x3 : Bm) : Bm := fun i => softmaxClamped c (scoreB x0 x1 x3 (i 0)) (i 1)

def outB (c : EReal) (x0 : Bq) (x1 x2 : Bk) (x3 : Bm) : Bo :=
  fun i => ∑ j : Fin 1024, attnB c x0 x1 x3 (ix2 (i 0) j) * x2 (ix3 (0 : Fin 1) j (i 1))

end Cert.Attn

end
-- ==== Proof.Payload.lean ====
/-
  What the body stores, read at an entry, as the attention functions of the grid point's blocks.
  With x0 the [1, 256, 64] block of queries, x1 and x2 the head's [1, 1024, 64] keys and values and x3 the
  [256, 1024] rows of the mask:
    the value stored to the weights' block at (0, r, j) is the clamped softmax of row r of the block's scores at j,
    the value stored to the output's block at (0, r, d) is Σ_j weights[r, j] · x2[0, j, d].
  The scores are the matrix product of the scaled queries with the keys plus the mask rows; the bf16 narrowings are the
  identity on the extended reals, and the leading unit axis of a block is dropped and added back by shape casts.
-/
import proofs.«135980_j75462575391105_2_alg».proof.Proof.Gen.KernelIdeal.Skeleton
import proofs.«135980_j75462575391105_2_alg».proof.Proof.BodyMatmul
import proofs.«135980_j75462575391105_2_alg».proof.Proof.BodySoftmax
import proofs.«135980_j75462575391105_2_alg».proof.Proof.Spec

noncomputable section

open scoped BigOperators

namespace Cert.KernelIdeal.Body

open Cert.KernelIdeal Cert.KernelIdeal.Facts₀ Idealize.ShloMosaic Idealize.ShloMosaic.ValueIdx Cert.Attn

/-! ## The unit axis of a block -/

theorem dropUnit_q (v : Vec Ideal S1x256x64 .f32) (r : Fin 256) (d : Fin 64) :
    shapeCast S256x64 v shapeCasts_S1x256x64_S256x64 (ix2 r d) = v (ix3 (0 : Fin 1) r d) :=
  shapeCast_apply v shapeCasts_S1x256x64_S256x64 (ix2 r d) (ix3 (0 : Fin 1) r d) (by
    rw [Shape.rowMajor_val_three, Shape.rowMajor_val_two]
    show (0 * 256 + r.val) * 64 + d.val = r.val * 64 + d.val
    omega)

theorem dropUnit_k (v : Vec Ideal S1x1024x64 .f32) (j : Fin 1024) (d : Fin 64) :
    shapeCast S1024x64 v shapeCasts_S1x1024x64_S1024x64 (ix2 j d) = v (ix3 (0 : Fin 1) j d) :=
  shapeCast_apply v shapeCasts_S1x1024x64_S1024x64 (ix2 j d) (ix3 (0 : Fin 1) j d) (by
    rw [Shape.rowMajor_val_three, Shape.rowMajor_val_two]
    show (0 * 1024 + j.val) * 64 + d.val = j.val * 64 + d.val
    omega)

theorem addUnit_attn (w : FVec Ideal S256x1024 .f32) (r : Fin 256) (j : Fin 1024) :
    shapeCast S1x256x1024 w shapeCasts_S256x1024_S1x256x1024 (ix3 (0 : Fin 1) r j) = w (ix2 r j) :=
  shapeCast_apply w shapeCasts_S256x1024_S1x256x1024 (ix3 (0 : Fin 1) r j) (ix2 r j) (by
    rw [Shape.rowMajor_val_three, Shape.rowMajor_val_two]
    show r.val * 1024 + j.val = (0 * 256 + r.val) * 1024 + j.val
    omega)

theorem addUnit_out (w : FVec Ideal S256x64 .f32) (r : Fin 256) (d : Fin 64) :
    shapeCast S1x256x64 w shapeCasts_S256x64_S1x256x64 (ix3 (0 : Fin 1) r d) = w (ix2 r d) :=
  shapeCast_apply w shapeCasts_S256x64_S1x256x64 (ix3 (0 : Fin 1) r d) (ix2 r d) (by
    rw [Shape.rowMajor_val_three, Shape.rowMajor_val_two]
    show r.val * 64 + d.val = (0 * 256 + r.val) * 64 + d.val
    omega)

/-! ## The scores -/

/-- The block of scores the body computes: scaled queries times keys, plus the mask rows. -/
def scoresV (v0 : Vec Ideal S1x256x64 .f32) (v2 : Vec Ideal S1x1024x64 .f32) (v11 : Vec Ideal S256x1024 .f32) :
    FVec Ideal S256x1024 .f32 :=
  addf (matmul Dqk none
      (truncf .bf16 (mulf (shapeCast S256x64 v0 shapeCasts_S1x256x64_S256x64)
        (broadcast S256x64 (Scalar.ofBits .f32 0x3E000000#32))) bitsLt_bf16_f32)
      (truncf .bf16 (shapeCast S1024x64 v2 shapeCasts_S1x1024x64_S1024x64) bitsLt_bf16_f32)
      (constant S256x1024 .f32 0x00000000#32))
    (shapeCast S256x1024 v11 shapeCasts_S256x1024_S256x1024)

/-- The weights' payload is the normalisation of the scores. -/
theorem pay1_eq (v0 : Vec Ideal S1x256x64 .f32) (v2 : Vec Ideal S1x1024x64 .f32) (v11 : Vec Ideal S256x1024 .f32) :
    Gen.k0_pay1 (F := Ideal) v0 v2 v11 = normalize (scoresV v0 v2 v11) := rfl

theorem scoresV_apply (v0 : Vec Ideal S1x256x64 .f32) (v2 : Vec Ideal S1x1024x64 .f32) (v11 : Vec Ideal S256x1024 .f32)
    (r : Fin 256) (j : Fin 1024) : scoresV v0 v2 v11 (ix2 r j) = scoreB v0 v2 v11 r j := by
  unfold scoresV scoreB
  rw [addf_apply, qk_apply, shapeCast_self]
  refine congrArg (· + _) (Finset.sum_congr rfl fun d _ => ?_)
  show (shapeCast S256x64 v0 shapeCasts_S1x256x64_S256x64 (ix2 r d) * Ideal.ofBits .f32 0x3E000000#32)
      * shapeCast S1024x64 v2 shapeCasts_S1x1024x64_S1024x64 (ix2 j d) = _
  rw [dropUnit_q, dropUnit_k, ofBits_eighth]

/-! ## The two stored values -/

theorem pay1_apply (v0 : Vec Ideal S1x256x64 .f32) (v2 : Vec Ideal S1x1024x64 .f32) (v11 : Vec Ideal S256x1024 .f32)
    (r : Fin 256) (j : Fin 1024) : Gen.k0_pay1 (F := Ideal) v0 v2 v11 (ix2 r j) = attnB clampC v0 v2 v11 (ix2 r j) := by
  rw [pay1_eq, normalize_apply]
  have hs : (fun j' : Fin 1024 => scoresV v0 v2 v11 (ix2 r j')) = scoreB v0 v2 v11 r :=
    funext fun j' => scoresV_apply v0 v2 v11 r j'
  rw [hs]
  rfl

theorem pay2_apply (v0 : Vec Ideal S1x256x64 .f32) (v2 : Vec Ideal S1x1024x64 .f32) (v11 : Vec Ideal S256x1024 .f32)
    (r : Fin 256) (j : Fin 1024) :
    Gen.k0_pay2 (F := Ideal) v0 v2 v11 (ix3 (0 : Fin 1) r j) = attnB clampC v0 v2 v11 (ix2 r j) := by
  show shapeCast S1x256x1024 (Gen.k0_pay1 (F := Ideal) v0 v2 v11) shapeCasts_S256x1024_S1x256x1024 (ix3 (0 : Fin 1) r j) = _
  rw [addUnit_attn, pay1_apply]

theorem pay3_apply (v0 : Vec Ideal S1x256x64 .f32) (v2 v4 : Vec Ideal S1x1024x64 .f32) (v11 : Vec Ideal S256x1024 .f32)
    (r : Fin 256) (d : Fin 64) :
    Gen.k0_pay3 (F := Ideal) v0 v2 v4 v11 (ix3 (0 : Fin 1) r d) = outB clampC v0 v2 v4 v11 (ix2 r d) := by
  show shapeCast S1x256x64 (matmul (F := Ideal) Dpv none (truncf .bf16 (Gen.k0_pay1 (F := Ideal) v0 v2 v11) bitsLt_bf16_f32)
      (truncf .bf16 (shapeCast S1024x64 v4 shapeCasts_S1x1024x64_S1024x64) bitsLt_bf16_f32)
      (constant (F := Ideal) S256x64 .f32 0x00000000#32)) shapeCasts_S256x64_S1x256x64 (ix3 (0 : Fin 1) r d) = _
  rw [addUnit_out, pv_apply]
  show ∑ j : Fin 1024, Gen.k0_pay1 (F := Ideal) v0 v2 v11 (ix2 r j) * shapeCast S1024x64 v4 shapeCasts_S1x1024x64_S1024x64 (ix2 j d)
    = ∑ j : Fin 1024, attnB clampC v0 v2 v11 (ix2 r j) * v4 (ix3 (0 : Fin 1) j d)
  exact Finset.sum_congr rfl fun j _ => by rw [pay1_apply, dropUnit_k]

end Cert.KernelIdeal.Body

end
-- ==== Proof.Final.lean ====
/-
  The two result arrays of the region, with the head axes merged, are the attention functions of the arrays the region
  reads. What a grid point writes back to the weights' array is its block of the weights function (the body's stored
  value at (0, r, j) is the clamped softmax of the block's scores, and the block's scores are the head's scores of the
  tile's rows); to the output's array, its block of the output function. The 512 blocks tile each array (the index
  [g, R, x] lies in the block of point 4·g + R / 256), so each array ends holding the whole function.
-/
import proofs.«135980_j75462575391105_2_alg».proof.Proof.Blocks
import proofs.«135980_j75462575391105_2_alg».proof.Proof.Payload

noncomputable section

open scoped BigOperators

namespace Cert.KernelIdeal.Final

open Cert.KernelIdeal Cert.KernelIdeal.Gen Cert.KernelIdeal.Grid Cert.KernelIdeal.Blocks Cert.KernelIdeal.Body Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The arrays the region reads, as it finds them. -/
abbrev Qm (c : Dev nD) : Q3 := V m c main_v0
abbrev Km (c : Dev nD) : Q3 := V m c main_v1
abbrev Vm (c : Dev nD) : Q3 := V m c main_v2
abbrev Mm (c : Dev nD) : M2 := V m c main_v3

/-- The scores of row r of a point's query tile are the head's scores of that row. -/
theorem scoreB_blk (c : Dev nD) (t : Fin cfg0.N) (r : Fin 256) :
    scoreB (iblk m c 0 t : Vec Ideal S1x256x64 .f32) (iblk m c 1 t : Vec Ideal S1x1024x64 .f32) (iblk m c 3 t : Vec Ideal S256x1024 .f32) r
      = score3 (Qm m c) (Km m c) (Mm m c) (headOf t) (rowOf t r) := by
  funext j
  unfold scoreB score3
  rw [blkM]
  exact congrArg (· + _) (Finset.sum_congr rfl fun d _ => by rw [blkQ, blkK])

/-- What point t writes back to the weights' array. -/
theorem flushedA (c : Dev nD) (t : Fin cfg0.N) :
    (dats m 0 c).flushed 5 t = ((cfg0.win 5).blk t).view.read (Elt Ideal) (attn3 clampC (Qm m c) (Km m c) (Mm m c)) := by
  show (cfg0.win 5).cut (grid0.coords t) ((dats m 0 c).after 5 t) = _
  rw [after0_5]
  unfold out0_5
  rw [View.canon_unit_zero hz3]
  simp only [View.ld_unit_zero (S := S1x256x64) hz3, View.ld_unit_zero (S := S1x1024x64) hz3, View.ld_unit_zero (S := S256x1024) hz2]
  show (fun y : S1x256x1024.Idx => k0_pay2 (F := Ideal) (iblk m c 0 t) (iblk m c 1 t) (iblk m c 3 t) y)
    = fun y : S1x256x1024.Idx => attn3 clampC (Qm m c) (Km m c) (Mm m c) (((cfg0.win 5).blk t).view.emb y)
  funext y
  obtain ⟨u, r, j, rfl⟩ : ∃ (u : Fin 1) (r : Fin 256) (j : Fin 1024), y = ix3 u r j := ⟨y 0, y 1, y 2, eq_ix3 y⟩
  obtain rfl : u = 0 := Subsingleton.elim _ _
  rw [embA]
  refine (pay2_apply _ _ _ r j).trans ?_
  show softmaxClamped clampC (scoreB (iblk m c 0 t : Vec Ideal S1x256x64 .f32) (iblk m c 1 t : Vec Ideal S1x1024x64 .f32) (iblk m c 3 t : Vec Ideal S256x1024 .f32) r) j
    = softmaxClamped clampC (score3 (Qm m c) (Km m c) (Mm m c) (headOf t) (rowOf t r)) j
  rw [scoreB_blk]

/-- What point t writes back to the output's array. -/
theorem flushedO (c : Dev nD) (t : Fin cfg0.N) :
    (dats m 0 c).flushed 4 t = ((cfg0.win 4).blk t).view.read (Elt Ideal) (out3 clampC (Qm m c) (Km m c) (Vm m c) (Mm m c)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x1024x64) hz3, View.ld_unit_zero (S := S256x1024) hz2]
  show (fun y : S1x256x64.Idx => k0_pay3 (F := Ideal) (iblk m c 0 t) (iblk m c 1 t) (iblk m c 2 t) (iblk m c 3 t) y)
    = fun y : S1x256x64.Idx => out3 clampC (Qm m c) (Km m c) (Vm m c) (Mm m c) (((cfg0.win 4).blk t).view.emb y)
  funext y
  obtain ⟨u, r, d, rfl⟩ : ∃ (u : Fin 1) (r : Fin 256) (d : Fin 64), y = ix3 u r d := ⟨y 0, y 1, y 2, eq_ix3 y⟩
  obtain rfl : u = 0 := Subsingleton.elim _ _
  rw [embO]
  refine (pay3_apply _ _ _ _ r d).trans ?_
  show ∑ j : Fin 1024, softmaxClamped clampC (scoreB (iblk m c 0 t : Vec Ideal S1x256x64 .f32) (iblk m c 1 t : Vec Ideal S1x1024x64 .f32) (iblk m c 3 t : Vec Ideal S256x1024 .f32) r) j
        * (iblk m c 2 t : Vec Ideal S1x1024x64 .f32) (ix3 (0 : Fin 1) j d)
    = ∑ j : Fin 1024, softmaxClamped clampC (score3 (Qm m c) (Km m c) (Mm m c) (headOf t) (rowOf t r)) j
        * Vm m c (ix3 (headOf t) j d)
  rw [scoreB_blk]
  exact Finset.sum_congr rfl fun j _ => by rw [blkV]

/-! ## The blocks tile the arrays -/

theorem mem_blkA (t : Fin cfg0.N) (i : S128x1024x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v4_1).slice (win0_5.rect t)).set ↔ _
  rw [View.set_slice_whole, Rect.mem_set_unit]
  exact Iff.rfl

theorem mem_blkO (t : Fin cfg0.N) (i : S128x1024x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v4_0).slice (win0_4.rect t)).set ↔ _
  rw [View.set_slice_whole, Rect.mem_set_unit]
  exact Iff.rfl

/-- The point whose blocks hold row R of head g. -/
def pointOf (g : Nat) (R : Nat) (hg : g < 128) (hR : R < 1024) : Fin cfg0.N :=
  ⟨g * 4 + R / 256, lt_of_lt_of_eq (by omega : g * 4 + R / 256 < 512) N_0.symm⟩

theorem coverA (i : S128x1024x1024.Idx) :
    ∃ t : Fin cfg0.N, (cfg0.win 5).flush t = true ∧ i ∈ ((cfg0.win 5).blk t).view.set := by
  have h0 : (i 0).val < 128 := (i 0).isLt
  have h1 : (i 1).val < 1024 := (i 1).isLt
  have h2 : (i 2).val < 1024 := (i 2).isLt
  refine ⟨pointOf (i 0).val (i 1).val h0 h1, flush0_5 _, ?_⟩
  rw [mem_blkA]
  obtain ⟨e0, e1, e2⟩ := idxA (pointOf (i 0).val (i 1).val h0 h1)
  have ht : (pointOf (i 0).val (i 1).val h0 h1).val = (i 0).val * 4 + (i 1).val / 256 := rfl
  intro a
  match a with
  | ⟨0, _⟩ =>
    show win0_5.index _ (0 : Fin 3) * 1 ≤ (i 0).val ∧ (i 0).val < win0_5.index _ (0 : Fin 3) * 1 + 1
    rw [e0, ht]; omega
  | ⟨1, _⟩ =>
    show win0_5.index _ (1 : Fin 3) * 256 ≤ (i 1).val ∧ (i 1).val < win0_5.index _ (1 : Fin 3) * 256 + 256
    rw [e1, ht]; omega
  | ⟨2, _⟩ =>
    show win0_5.index _ (2 : Fin 3) * 1024 ≤ (i 2).val ∧ (i 2).val < win0_5.index _ (2 : Fin 3) * 1024 + 1024
    rw [e2]; omega

theorem coverO (i : S128x1024x64.Idx) :
    ∃ t : Fin cfg0.N, (cfg0.win 4).flush t = true ∧ i ∈ ((cfg0.win 4).blk t).view.set := by
  have h0 : (i 0).val < 128 := (i 0).isLt
  have h1 : (i 1).val < 1024 := (i 1).isLt
  have h2 : (i 2).val < 64 := (i 2).isLt
  refine ⟨pointOf (i 0).val (i 1).val h0 h1, flush0_4 _, ?_⟩
  rw [mem_blkO]
  obtain ⟨e0, e1, e2⟩ := idxO (pointOf (i 0).val (i 1).val h0 h1)
  have ht : (pointOf (i 0).val (i 1).val h0 h1).val = (i 0).val * 4 + (i 1).val / 256 := rfl
  intro a
  match a with
  | ⟨0, _⟩ =>
    show win0_4.index _ (0 : Fin 3) * 1 ≤ (i 0).val ∧ (i 0).val < win0_4.index _ (0 : Fin 3) * 1 + 1
    rw [e0, ht]; omega
  | ⟨1, _⟩ =>
    show win0_4.index _ (1 : Fin 3) * 256 ≤ (i 1).val ∧ (i 1).val < win0_4.index _ (1 : Fin 3) * 256 + 256
    rw [e1, ht]; omega
  | ⟨2, _⟩ =>
    show win0_4.index _ (2 : Fin 3) * 64 ≤ (i 2).val ∧ (i 2).val < win0_4.index _ (2 : Fin 3) * 64 + 64
    rw [e2]; omega

/-! ## The arrays after the region -/

theorem finalA (c : Dev nD) : (dats m 0 c).arrAt 5 cfg0.N = attn3 clampC (Qm m c) (Km m c) (Mm m c) :=
  (dats m 0 c).arrAt_eq_of_cover 5 (attn3 clampC (Qm m c) (Km m c) (Mm m c)) (fun t _ => flushedA m c t) coverA

theorem finalO (c : Dev nD) : (dats m 0 c).arrAt 4 cfg0.N = out3 clampC (Qm m c) (Km m c) (Vm m c) (Mm m c) :=
  (dats m 0 c).arrAt_eq_of_cover 4 (out3 clampC (Qm m c) (Km m c) (Vm m c) (Mm m c)) (fun t _ => flushedO m c t) coverO

end Cert.KernelIdeal.Final

end
-- ==== Proof.HostSides.lean ====
/-
  The host operations around the region are relayouts. Before it, each of q, k, v is viewed with its two head axes
  merged ([8, 16, 1024, 64] as [128, 1024, 64]: entry (16·b + h, r, d) is entry (b, h, r, d)) and the mask with its
  two unit axes dropped; after it, the two results are viewed with the head axis split again. A relayout keeps the
  row-major position of every entry.
-/
import proofs.«135980_j75462575391105_2_alg».proof.Proof.Gen.KernelIdeal.Frame
import proofs.«135980_j75462575391105_2_alg».proof.Proof.Spec
import Idealize.ShloMosaic.Lib.Pipeline.Value
import Idealize.ShloMosaic.Lib.StableHlo.Run
import Idealize.ShloMosaic.Lib.ValueIdx

noncomputable section

namespace Cert.KernelIdeal.HostSides

open Cert.KernelIdeal Cert.KernelIdeal.Gen Cert.Attn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## Relayouts read at an entry -/

theorem merge_apply (x : Q4) (b : Fin 8) (h : Fin 16) (r : Fin 1024) (d : Fin 64) :
    shapeCast S128x1024x64 x Facts₀.shapeCasts_S8x16x1024x64_S128x1024x64 (ix3 (head b h) r d) = x (ix4 b h r d) :=
  shapeCast_apply x Facts₀.shapeCasts_S8x16x1024x64_S128x1024x64 (ix3 (head b h) r d) (ix4 b h r d) (by
    rw [Shape.rowMajor_val_four, Shape.rowMajor_val_three]
    show ((b.val * 16 + h.val) * 1024 + r.val) * 64 + d.val = ((16 * b.val + h.val) * 1024 + r.val) * 64 + d.val
    omega)

theorem mask_apply (x : M4) (r j : Fin 1024) :
    shapeCast S1024x1024 x Facts₀.shapeCasts_S1x1x1024x1024_S1024x1024 (ix2 r j) = x (ix4 (0 : Fin 1) (0 : Fin 1) r j) :=
  shapeCast_apply x Facts₀.shapeCasts_S1x1x1024x1024_S1024x1024 (ix2 r j) (ix4 (0 : Fin 1) (0 : Fin 1) r j) (by
    rw [Shape.rowMajor_val_four, Shape.rowMajor_val_two]
    show ((0 * 1 + 0) * 1024 + r.val) * 1024 + j.val = r.val * 1024 + j.val
    omega)

theorem splitO_apply (y : Q3) (b : Fin 8) (h : Fin 16) (r : Fin 1024) (d : Fin 64) :
    shapeCast S8x16x1024x64 y Facts₀.shapeCasts_S128x1024x64_S8x16x1024x64 (ix4 b h r d) = y (ix3 (head b h) r d) :=
  shapeCast_apply y Facts₀.shapeCasts_S128x1024x64_S8x16x1024x64 (ix4 b h r d) (ix3 (head b h) r d) (by
    rw [Shape.rowMajor_val_four, Shape.rowMajor_val_three]
    show ((16 * b.val + h.val) * 1024 + r.val) * 64 + d.val = ((b.val * 16 + h.val) * 1024 + r.val) * 64 + d.val
    omega)

theorem splitA_apply (y : A3) (b : Fin 8) (h : Fin 16) (r j : Fin 1024) :
    shapeCast S8x16x1024x1024 y Facts₀.shapeCasts_S128x1024x1024_S8x16x1024x1024 (ix4 b h r j) = y (ix3 (head b h) r j) :=
  shapeCast_apply y Facts₀.shapeCasts_S128x1024x1024_S8x16x1024x1024 (ix4 b h r j) (ix3 (head b h) r j) (by
    rw [Shape.rowMajor_val_four, Shape.rowMajor_val_three]
    show ((16 * b.val + h.val) * 1024 + r.val) * 1024 + j.val = ((b.val * 16 + h.val) * 1024 + r.val) * 1024 + j.val
    omega)

/-! ## The arrays the region finds -/

theorem V_q (c : Dev nD) : (V m c main_v0 : Q3)
    = shapeCast S128x1024x64 (m ((c : Thread nD τ).loc main_arg0) : Q4) Facts₀.shapeCasts_S8x16x1024x64_S128x1024x64 := by
  show StableHlo.after hostOps0 (fun b => m (c, b)) (Proc.devRef .tc main_v0) = _
  after_results
  rfl

theorem V_k (c : Dev nD) : (V m c main_v1 : Q3)
    = shapeCast S128x1024x64 (m ((c : Thread nD τ).loc main_arg1) : Q4) Facts₀.shapeCasts_S8x16x1024x64_S128x1024x64 := by
  show StableHlo.after hostOps0 (fun b => m (c, b)) (Proc.devRef .tc main_v1) = _
  after_results
  rfl

theorem V_v (c : Dev nD) : (V m c main_v2 : Q3)
    = shapeCast S128x1024x64 (m ((c : Thread nD τ).loc main_arg2) : Q4) Facts₀.shapeCasts_S8x16x1024x64_S128x1024x64 := by
  show StableHlo.after hostOps0 (fun b => m (c, b)) (Proc.devRef .tc main_v2) = _
  after_results
  rfl

theorem V_mask (c : Dev nD) : (V m c main_v3 : M2)
    = shapeCast S1024x1024 (m ((c : Thread nD τ).loc main_arg3) : M4) Facts₀.shapeCasts_S1x1x1024x1024_S1024x1024 := by
  show StableHlo.after hostOps0 (fun b => m (c, b)) (Proc.devRef .tc main_v3) = _
  after_results
  rfl

/-! ## The results after the region's tail -/

theorem tail_out (c : Dev nD) :
    (Pipeline.afterTail₀ cfgs (dats m) 0 (V0 m) [hostOps1] c main_v5 : Q4)
      = shapeCast S8x16x1024x64 ((dats m 0 c).arrAt 4 cfg0.N : Q3) Facts₀.shapeCasts_S128x1024x64_S8x16x1024x64 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4_0)
      = (dats m 0 c).arrAt 4 cfg0.N := Pipeline.withArrays_arr spec0 launch0.win.arr_inj c _ _ 4
  rw [e]
  rfl

theorem tail_attn (c : Dev nD) :
    (Pipeline.afterTail₀ cfgs (dats m) 0 (V0 m) [hostOps1] c main_v6 : A4)
      = shapeCast S8x16x1024x1024 ((dats m 0 c).arrAt 5 cfg0.N : A3) Facts₀.shapeCasts_S128x1024x1024_S8x16x1024x1024 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4_1)
      = (dats m 0 c).arrAt 5 cfg0.N := Pipeline.withArrays_arr spec0 launch0.win.arr_inj c _ _ 5
  rw [e]
  rfl

end Cert.KernelIdeal.HostSides

end
-- ==== Proof.KernelRun.lean ====
/-
  The kernel program's run, read: every weakly fair execution ends with the first result at the output function and
  the second at the weights function, in the kernel's spelling, of the four argument arrays as launched, and the
  arguments unchanged. The region leaves the merged-head arrays at the merged functions of the relaid arguments; the
  relayout after the region splits the head axis again, and the merged functions of relaid arrays are the functions of
  the arrays themselves.
-/
import proofs.«135980_j75462575391105_2_alg».proof.Proof.Final
import proofs.«135980_j75462575391105_2_alg».proof.Proof.HostSides

noncomputable section

namespace Cert.KernelIdeal.KernelRun

open Cert.KernelIdeal Cert.KernelIdeal.Gen Cert.KernelIdeal.Body Cert.KernelIdeal.Final Cert.KernelIdeal.HostSides Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays as launched. -/
abbrev argQ (c : Dev nD) : Q4 := m ((c.tc : Thread nD τ).loc main_arg0)
abbrev argK (c : Dev nD) : Q4 := m ((c.tc : Thread nD τ).loc main_arg1)
abbrev argV (c : Dev nD) : Q4 := m ((c.tc : Thread nD τ).loc main_arg2)
abbrev argM (c : Dev nD) : M4 := m ((c.tc : Thread nD τ).loc main_arg3)

theorem hQ (c : Dev nD) (b : Fin 8) (h : Fin 16) (r : Fin 1024) (d : Fin 64) :
    Qm m c (ix3 (head b h) r d) = argQ m c (ix4 b h r d) :=
  (congrFun (V_q m c) _).trans (merge_apply _ b h r d)
theorem hK (c : Dev nD) (b : Fin 8) (h : Fin 16) (r : Fin 1024) (d : Fin 64) :
    Km m c (ix3 (head b h) r d) = argK m c (ix4 b h r d) :=
  (congrFun (V_k m c) _).trans (merge_apply _ b h r d)
theorem hV (c : Dev nD) (b : Fin 8) (h : Fin 16) (r : Fin 1024) (d : Fin 64) :
    Vm m c (ix3 (head b h) r d) = argV m c (ix4 b h r d) :=
  (congrFun (V_v m c) _).trans (merge_apply _ b h r d)
theorem hM (c : Dev nD) (r j : Fin 1024) :
    Mm m c (ix2 r j) = argM m c (ix4 (0 : Fin 1) (0 : Fin 1) r j) :=
  (congrFun (V_mask m c) _).trans (mask_apply _ r j)

/-- The second result after the tail is the weights function of the arguments. -/
theorem attn_eq (c : Dev nD) :
    (Pipeline.afterTail₀ cfgs (dats m) 0 (V0 m) [hostOps1] c main_v6 : A4)
      = attnKer clampC (argQ m c) (argK m c) (argM m c) := by
  rw [tail_attn, finalA]
  funext i
  obtain ⟨b, h, r, j, rfl⟩ : ∃ (b : Fin 8) (h : Fin 16) (r : Fin 1024) (j : Fin 1024), i = ix4 b h r j :=
    ⟨i 0, i 1, i 2, i 3, eq_ix4 i⟩
  rw [splitA_apply]
  exact attn3_eq clampC (argQ m c) (argK m c) (argM m c) (Qm m c) (Km m c) (Mm m c) (hQ m c) (hK m c) (hM m c) b h r j

/-- The first result after the tail is the output function of the arguments. -/
theorem out_eq (c : Dev nD) :
    (Pipeline.afterTail₀ cfgs (dats m) 0 (V0 m) [hostOps1] c main_v5 : Q4)
      = outKer clampC (argQ m c) (argK m c) (argV m c) (argM m c) := by
  rw [tail_out, finalO]
  funext i
  obtain ⟨b, h, r, d, rfl⟩ : ∃ (b : Fin 8) (h : Fin 16) (r : Fin 1024) (d : Fin 64), i = ix4 b h r d :=
    ⟨i 0, i 1, i 2, i 3, eq_ix4 i⟩
  rw [splitO_apply]
  exact out3_eq clampC (argQ m c) (argK m c) (argV m c) (argM m c) (Qm m c) (Km m c) (Vm m c) (Mm m c)
    (hQ m c) (hK m c) (hV m c) (hM m c) b h r d

/-- The run, read. -/
theorem run : θ_run defs (onTc (τ := τ) (main (F := Ideal))) ⟨m, fun _ => 0, ρ⟩ fun r => ∀ c : Dev nD,
      r.2.mem ((c.tc : Thread nD τ).loc main_v5) = outKer clampC (argQ m c) (argK m c) (argV m c) (argM m c)
      ∧ r.2.mem ((c.tc : Thread nD τ).loc main_v6) = attnKer clampC (argQ m c) (argK m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (out_eq m c),
      ((h c).2 main_v6 (Pipeline.mem_restRefs_of main_v6 (by decide) (by decide))).trans (attn_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The reference's two results are the attention functions in the reference's spelling: read one operation at a time at
  an index (b, h, r, j), the scores are the dot products divided by 8 plus the broadcast mask, the row maximum is the
  reduction of the scores over the key axis from -∞ (the further maximum with -∞ changes nothing), the weights are the
  exponentials of the differences divided by their sum over the key axis (from 0), and the output is the contraction
  of the weights with the values over the key axis.
-/
import proofs.«135980_j75462575391105_2_alg».proof.Proof.Gen.ReferenceIdeal.Read
import proofs.«135980_j75462575391105_2_alg».proof.Proof.Spec

noncomputable section

open scoped BigOperators

namespace Cert.ReferenceIdeal.RefValue

open Cert.ReferenceIdeal Cert.ReferenceIdeal.Facts₀ Cert.ReferenceIdeal.Read Idealize.ShloMosaic Idealize.ShloMosaic.ValueIdx Cert.Attn

variable (q k v : Q4) (mask : M4)

/-! ## The index maps of the read lemmas, at coordinates -/

theorem lidx0 (b : Fin 8) (h : Fin 16) (r j : Fin 1024) (d : Fin 64) : lidx_main_v0 (ix4 b h r j) d = ix4 b h r d :=
  funext fun a => Fin.ext (by match a with | ⟨0, _⟩ => rfl | ⟨1, _⟩ => rfl | ⟨2, _⟩ => rfl | ⟨3, _⟩ => rfl)
theorem ridx0 (b : Fin 8) (h : Fin 16) (r j : Fin 1024) (d : Fin 64) : ridx_main_v0 (ix4 b h r j) d = ix4 b h j d :=
  funext fun a => Fin.ext (by match a with | ⟨0, _⟩ => rfl | ⟨1, _⟩ => rfl | ⟨2, _⟩ => rfl | ⟨3, _⟩ => rfl)
theorem idx3 (b : Fin 8) (h : Fin 16) (r j : Fin 1024) : idx_main_v3 (ix4 b h r j) = ix4 (0 : Fin 1) (0 : Fin 1) r j :=
  funext fun a => Fin.ext (by match a with | ⟨0, _⟩ => rfl | ⟨1, _⟩ => rfl | ⟨2, _⟩ => rfl | ⟨3, _⟩ => rfl)
theorem idx89 (b : Fin 8) (h : Fin 16) (r j : Fin 1024) : idx_main_v8 (idx_main_v9 (ix4 b h r j)) = ix3 b h r :=
  funext fun a => Fin.ext (by match a with | ⟨0, _⟩ => rfl | ⟨1, _⟩ => rfl | ⟨2, _⟩ => rfl)
theorem idx1314 (b : Fin 8) (h : Fin 16) (r j : Fin 1024) : idx_main_v13 (idx_main_v14 (ix4 b h r j)) = ix3 b h r :=
  funext fun a => Fin.ext (by match a with | ⟨0, _⟩ => rfl | ⟨1, _⟩ => rfl | ⟨2, _⟩ => rfl)
theorem idx12 (b : Fin 8) (h : Fin 16) (r j : Fin 1024) : idx_main_v12 (ix3 b h r) j = ix4 b h r j :=
  funext fun a => Fin.ext (by match a with | ⟨0, _⟩ => rfl | ⟨1, _⟩ => rfl | ⟨2, _⟩ => rfl | ⟨3, _⟩ => rfl)
theorem lidx16 (b : Fin 8) (h : Fin 16) (r : Fin 1024) (d : Fin 64) (j : Fin 1024) : lidx_main_v16 (ix4 b h r d) j = ix4 b h r j :=
  funext fun a => Fin.ext (by match a with | ⟨0, _⟩ => rfl | ⟨1, _⟩ => rfl | ⟨2, _⟩ => rfl | ⟨3, _⟩ => rfl)
theorem ridx16 (b : Fin 8) (h : Fin 16) (r : Fin 1024) (d : Fin 64) (j : Fin 1024) : ridx_main_v16 (ix4 b h r d) j = ix4 b h j d :=
  funext fun a => Fin.ext (by match a with | ⟨0, _⟩ => rfl | ⟨1, _⟩ => rfl | ⟨2, _⟩ => rfl | ⟨3, _⟩ => rfl)

/-! ## The stages -/

/-- The scores. -/
theorem v4_apply (b : Fin 8) (h : Fin 16) (r j : Fin 1024) :
    val_main_v4 (F := Ideal) q k mask (ix4 b h r j) = scoreRef q k mask b h r j := by
  rw [val_main_v4_apply, val_main_v2_apply, val_main_v0_apply, val_main_v1_apply, val_main_cst_apply, val_main_v3_apply]
  simp only [lidx0, ridx0, idx3]
  show Ideal.div (∑ d : Fin 64, q (ix4 b h r d) * k (ix4 b h j d)) (Ideal.ofBits .f32 0x41000000#32)
      + mask (ix4 (0 : Fin 1) (0 : Fin 1) r j) = _
  rw [ofBits_eight]
  rfl

/-- The row maximum. -/
theorem v7_apply (b : Fin 8) (h : Fin 16) (r : Fin 1024) :
    val_main_v7 (F := Ideal) q k mask (ix3 b h r) = rowMax (scoreRef q k mask b h r) := by
  have hR : S8x16x1024x1024.Reduces [3] S8x16x1024 := by decide
  rw [val_main_v7_apply, val_main_v6_apply, val_main_cst_1_apply]
  unfold val_main_v5
  rw [Host.reduce_eq_fold_single FloatOps.maximumf _ _ reducesTo_S8x16x1024x1024_S8x16x1024_d3 hR h_S_ (ix3 b h r)]
  show max (Ideal.ofBits .f32 0xFF800000#32) ((Finset.univ : Finset (Fin 1024)).fold max (Ideal.ofBits .f32 0xFF800000#32)
      (val_main_v4 (F := Ideal) q k mask ∘ hR.lift (ix3 b h r)))
    = (Finset.univ : Finset (Fin 1024)).fold max ⊥ (scoreRef q k mask b h r)
  have hrow : (val_main_v4 (F := Ideal) q k mask ∘ hR.lift (ix3 b h r)) = scoreRef q k mask b h r :=
    funext fun j => (congrArg (val_main_v4 (F := Ideal) q k mask)
      (funext fun a => Fin.ext (by match a with | ⟨0, _⟩ => rfl | ⟨1, _⟩ => rfl | ⟨2, _⟩ => rfl | ⟨3, _⟩ => rfl))).trans
      (v4_apply q k mask b h r j)
  rw [hrow, ofBits_negInf, max_eq_right bot_le]
  rfl

/-- The exponentials. -/
theorem v11_apply (b : Fin 8) (h : Fin 16) (r j : Fin 1024) :
    val_main_v11 (F := Ideal) q k mask (ix4 b h r j) = expShift (scoreRef q k mask b h r) j := by
  rw [val_main_v11_apply, val_main_v10_apply, val_main_v9_apply, val_main_v8_apply, v4_apply, idx89, v7_apply]
  rfl

/-- The weights. -/
theorem v15_apply (b : Fin 8) (h : Fin 16) (r j : Fin 1024) :
    val_main_v15 (F := Ideal) q k mask (ix4 b h r j) = attnRef q k mask (ix4 b h r j) := by
  rw [val_main_v15_apply, v11_apply, val_main_v14_apply, val_main_v13_apply, idx1314, val_main_v12_apply, val_main_cst_2_apply]
  simp only [idx12, v11_apply]
  show Ideal.div (expShift (scoreRef q k mask b h r) j)
      (Ideal.ofBits .f32 0x00000000#32 + ∑ j' : Fin 1024, expShift (scoreRef q k mask b h r) j')
    = Ideal.div (expShift (scoreRef q k mask b h r) j) (∑ j' : Fin 1024, expShift (scoreRef q k mask b h r) j')
  rw [Ideal.ofBits_zero_f32, zero_add]

theorem weights_eq : val_main_v15 (F := Ideal) q k mask = attnRef q k mask := by
  funext i
  obtain ⟨b, h, r, j, rfl⟩ : ∃ (b : Fin 8) (h : Fin 16) (r : Fin 1024) (j : Fin 1024), i = ix4 b h r j :=
    ⟨i 0, i 1, i 2, i 3, eq_ix4 i⟩
  exact v15_apply q k mask b h r j

/-- The output. -/
theorem output_eq : val_main_v16 (F := Ideal) q k v mask = outRef q k v mask := by
  funext i
  obtain ⟨b, h, r, d, rfl⟩ : ∃ (b : Fin 8) (h : Fin 16) (r : Fin 1024) (d : Fin 64), i = ix4 b h r d :=
    ⟨i 0, i 1, i 2, i 3, eq_ix4 i⟩
  rw [val_main_v16_apply]
  show _ = ∑ j : Fin 1024, attnRef q k mask (ix4 b h r j) * v (ix4 b h j d)
  exact Finset.sum_congr rfl fun j _ => by rw [lidx16, ridx16, v15_apply]

end Cert.ReferenceIdeal.RefValue

end
-- ==== Proof.InputsReal.lean ====
import proofs.«135980_j75462575391105_2_alg».proof.Pre_finite_inputs
import proofs.«135980_j75462575391105_2_alg».proof.Proof.Gen.Pre_finite_inputs
import Idealize.ShloMosaic.PureOps.Ideal
import Idealize.ShloMosaic.Lib.ReduceAll
import Idealize.ShloMosaic.Lib.ValueIdx
noncomputable section
namespace Cert.InputsReal
open Idealize.ShloMosaic

/-- The f32 pattern 0x7F800000 (exponent all ones, fraction zero, sign clear) denotes +∞. -/
theorem inf_bits : Ideal.ofBits .f32 0x7F800000#32 = (⊤ : EReal) := by
  simp [Ideal.ofBits, Ideal.ieee]

/-- On the extended reals, |x| = max x (-x) strictly below +∞ leaves only the reals: at x = -∞ the
    maximum is -(-∞) = +∞, at x = +∞ it is +∞, and +∞ < +∞ is false. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The element fact: where the comparison of |x| against the broadcast +∞ constant answers 1 at index i,
    the entry x i is a real. -/
theorem real_of_elem {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [inf_bits] at h'
  exact real_of_abs_lt_top _ h'

/-- The rank-0 shape has one index: an index is a function out of the empty type of axes. -/
instance subsingleton_S_ : Subsingleton Cert.Pre_finite_inputs.S_.Idx := ⟨fun a b => funext fun d => d.elim0⟩

/-- The precondition, read at the extended reals, makes every entry of the four argument arrays a real: its one
    output word is the conjunction of four reductions by "and", one per array, of the elementwise test |x| < +∞;
    the word being 1, every reduction is 1, so every element of every test is 1, so every entry is a real. -/
theorem real_of_pre [Cert.Pre_finite_inputs.Facts]
    (a0 a1 a2 : FVec Ideal Cert.Pre_finite_inputs.S8x16x1024x64 .f32) (a3 : FVec Ideal Cert.Pre_finite_inputs.S1x1x1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨fun i => real_of_elem _ a0 i (Host.reduce_andi_all _ _ _ _ _ e0 i),
    fun i => real_of_elem _ a1 i (Host.reduce_andi_all _ _ _ _ _ e1 i),
    fun i => real_of_elem _ a2 i (Host.reduce_andi_all _ _ _ _ _ e2 i),
    fun i => real_of_elem _ a3 i (Host.reduce_andi_all _ _ _ _ _ e3 i)⟩

end Cert.InputsReal
end
-- ==== Proof.lean ====
/-
  Scaled dot-product attention (8 × 16 heads, 1024 positions, head dimension 64, an additive mask shared by all heads):
  the kernel against softmax(q·kᵀ / 8 + mask)·v, at the extended reals, on finite inputs.

  Both programs compute, for each head and query row, the row softmax of the scores and its product with the values.
  They differ in two places. The kernel multiplies the queries by 1/8 before the dot products where the reference divides
  the dot products by 8: equal by the distributive law, which needs the factors real — this is where the precondition
  is used. The kernel clamps the softmax's normaliser from below by the named constant 10⁻³⁰: with real scores the
  normaliser is at least 1 (the row's maximal score contributes exp 0), so the clamp is the identity. Everything else —
  the bf16 narrowings, the tiling of the query rows into blocks of 256 over a grid of 128 heads × 4 tiles, the merging
  and splitting of the head axes around the region — is the identity on values, or a relayout.

  The frames of the two kernel programs and the run of the reference are the imported generated modules; the value of
  the kernel program is read off its frame run block by block.
-/
import proofs.«135980_j75462575391105_2_alg».proof.Defs
import proofs.«135980_j75462575391105_2_alg».proof.Proof.Gen.Kernel
import proofs.«135980_j75462575391105_2_alg».proof.Proof.Gen.Kernel.Frame
import proofs.«135980_j75462575391105_2_alg».proof.Proof.Gen.KernelIdeal
import proofs.«135980_j75462575391105_2_alg».proof.Proof.Gen.KernelIdeal.Frame
import proofs.«135980_j75462575391105_2_alg».proof.Proof.Gen.ReferenceIdeal
import proofs.«135980_j75462575391105_2_alg».proof.Proof.Gen.ReferenceIdeal.Read
import proofs.«135980_j75462575391105_2_alg».proof.Proof.Gen.Pre_finite_inputs
import proofs.«135980_j75462575391105_2_alg».proof.Proof.KernelRun
import proofs.«135980_j75462575391105_2_alg».proof.Proof.RefValue
import proofs.«135980_j75462575391105_2_alg».proof.Proof.InputsReal
import Idealize.ShloMosaic.Adequacy
import Idealize.ShloMosaic.Init

noncomputable section

namespace Cert.Proof

open Idealize.ShloMosaic Idealize.SL.Sem Cert.Attn Cert.KernelIdeal.Body Cert.KernelIdeal.KernelRun

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the clamp constant's name stands for the rational 10⁻³⁰. -/
theorem preserves : Cert.preserves_Kernel_KernelIdeal :=
  IdealRules.named_const.statement Cert.KernelIdeal.κ "inv_1000000000000000000000000000000" .f32 0x0DA24260#32
    ((1 / 1000000000000000000000000000000 : ℝ) : EReal) rfl

/-- Both programs end at the attention functions of arguments that agree; on real arguments the kernel's spelling of
    those functions is the reference's. -/
theorem algebraic : Cert.algebraic_KernelIdeal_ReferenceIdeal := by
  intro m ρ m' ρ' hpre hagree
  refine ⟨fun c => outKer clampC (argQ m c) (argK m c) (argV m c) (argM m c),
    fun c => attnKer clampC (argQ m c) (argK m c) (argM m c), Cert.KernelIdeal.KernelRun.run m ρ, ?_⟩
  refine (θ_run Cert.ReferenceIdeal.defs _ _).mono (fun _ h c => ?_) (Cert.ReferenceIdeal.Value.run (F := Ideal) m' ρ')
  obtain ⟨h16, h15, ha0, ha1, ha2, ha3⟩ := h c
  obtain ⟨e0, e1, e2, e3⟩ := hagree c
  obtain ⟨r0, r1, _, r3⟩ := Cert.InputsReal.real_of_pre _ _ _ _ (hpre c)
  refine ⟨h16.trans ?_, h15.trans ?_, ha0, ha1, ha2, ha3⟩
  · rw [Cert.ReferenceIdeal.Read.val_main_v16_eq, Cert.ReferenceIdeal.RefValue.output_eq, e0, e1, e2, e3]
    exact (outKer_eq clampC clampC_le_one _ _ _ _ r0 r1 r3).symm
  · rw [Cert.ReferenceIdeal.Read.val_main_v15_eq, Cert.ReferenceIdeal.RefValue.weights_eq, e0, e1, e3]
    exact (attnKer_eq clampC clampC_le_one _ _ _ r0 r1 r3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
